-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1228800x128 : Shape := ⟨2, ![1228800, 128]⟩
abbrev S1228800 : Shape := ⟨1, ![1228800]⟩
abbrev S81920 : Shape := ⟨1, ![81920]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S1228800x128 : S_.BroadcastsInDim S1228800x128 (![] : Fin 0 → Fin S1228800x128.rank)
  reducesTo_S1228800x128_S_d0_1 : S1228800x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S256x64 .f32) (main_arg9 : FVec F S256x64 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg8
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg9
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1228800x128 .f32) (main_arg1 : IVec S1228800 32) (main_arg2 : IVec S1228800 32) (main_arg3 : IVec S81920 32) (main_arg4 : IVec S81920 32) (main_arg5 : FVec F S128x256 .f32) (main_arg6 : FVec F S128x256 .f32) (main_arg7 : FVec F S256 .f32) (main_arg8 : FVec F S256x64 .f32) (main_arg9 : FVec F S256x64 .f32) (main_arg10 : FVec F S64 .f32) : IVec S_ 1 :=
  let main_v0 : FVec F S1228800x128 .f32 := Host.absf main_arg0
  let main_cst : FVec F S_ .f32 := constant S_ .f32 0x7F800000#32
  let main_v1 : FVec F S1228800x128 .f32 := broadcastInDim S1228800x128 ![] bcast_S_S1228800x128 main_cst
  let main_v2 : IVec S1228800x128 1 := cmpf .olt main_v0 main_v1
  let main_c : IVec S_ 1 := constantI S_ 1 1#1
  let main_v3 : IVec S_ 1 := (fun x v => Host.reduce IntOp.andi x v reducesTo_S1228800x128_S_d0_1 h_S_) main_v2 main_c
  let main_v4 : FVec F S128x256 .f32 := Host.absf main_arg5
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_v13 main_v16
-- ==== Kernel.lean ====
abbrev S1228800x128 : Shape := ⟨2, ![1228800, 128]⟩
abbrev S1228800 : Shape := ⟨1, ![1228800]⟩
abbrev S81920 : Shape := ⟨1, ![81920]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S1228800x1 : Shape := ⟨2, ![1228800, 1]⟩
abbrev S81920x128 : Shape := ⟨2, ![81920, 128]⟩
abbrev S81920x1 : Shape := ⟨2, ![81920, 1]⟩
abbrev S81920x256 : Shape := ⟨2, ![81920, 256]⟩
abbrev S4096x128 : Shape := ⟨2, ![4096, 128]⟩
abbrev S4096x1 : Shape := ⟨2, ![4096, 1]⟩
abbrev S4096x256 : Shape := ⟨2, ![4096, 256]⟩
abbrev S1x256 : Shape := ⟨2, ![1, 256]⟩
abbrev S8192x256 : Shape := ⟨2, ![8192, 256]⟩
abbrev S8192 : Shape := ⟨1, ![8192]⟩
abbrev S8192x1 : Shape := ⟨2, ![8192, 1]⟩
abbrev S8192x64 : Shape := ⟨2, ![8192, 64]⟩
abbrev S4096x64 : Shape := ⟨2, ![4096, 64]⟩
abbrev S1x64 : Shape := ⟨2, ![1, 64]⟩

abbrev nBuf : Space → Nat
  | .hbm => 59
  | .vmem => 22
  | .smem => 0
  | _ => 0

abbrev bufTy : (tb : Table) → Fin (tcTables nBuf tb) → BufTy
  | .hbm, ⟨0, _⟩ => ⟨S1228800x128, .f32⟩
  | .hbm, ⟨1, _⟩ => ⟨S1228800, .i32⟩
  | .hbm, ⟨2, _⟩ => ⟨S1228800, .i32⟩
  | .hbm, ⟨3, _⟩ => ⟨S81920, .i32⟩
  | .hbm, ⟨4, _⟩ => ⟨S81920, .i32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S256x64, .f32⟩
  | .hbm, ⟨9, _⟩ => ⟨S256x64, .f32⟩
  | .hbm, ⟨10, _⟩ => ⟨S64, .f32⟩
  | .hbm, ⟨11, _⟩ => ⟨S_, .i32⟩
  | .hbm, ⟨12, _⟩ => ⟨S1228800, .i32⟩
  | .hbm, ⟨13, _⟩ => ⟨S1228800, .i1⟩
  | .hbm, ⟨14, _⟩ => ⟨S_, .i32⟩
  | .hbm, ⟨15, _⟩ => ⟨S1228800, .i32⟩
  | .hbm, ⟨16, _⟩ => ⟨S1228800, .i32⟩
  | .hbm, ⟨17, _⟩ => ⟨S1228800, .i32⟩
  | .hbm, ⟨18, _⟩ => ⟨S1228800x1, .i32⟩
  | .hbm, ⟨19, _⟩ => ⟨S1228800x128, .f32⟩
  | .hbm, ⟨20, _⟩ => ⟨S_, .f32⟩
  | .hbm, ⟨21, _⟩ => ⟨S81920x128, .f32⟩
  | .hbm, ⟨22, _⟩ => ⟨S1228800x1, .i32⟩
  | .hbm, ⟨23, _⟩ => ⟨S81920x128, .f32⟩
  | .hbm, ⟨24, _⟩ => ⟨S_, .f32⟩
  | .hbm, ⟨25, _⟩ => ⟨S1228800, .f32⟩
  | .hbm, ⟨26, _⟩ => ⟨S_, .f32⟩
  | .hbm, ⟨27, _⟩ => ⟨S81920, .f32⟩
  | .hbm, ⟨28, _⟩ => ⟨S1228800x1, .i32⟩
  | .hbm, ⟨29, _⟩ => ⟨S81920, .f32⟩
  | .hbm, ⟨30, _⟩ => ⟨S_, .f32⟩
  | .hbm, ⟨31, _⟩ => ⟨S81920, .f32⟩
  | .hbm, ⟨32, _⟩ => ⟨S81920, .f32⟩
  | .hbm, ⟨33, _⟩ => ⟨S81920x1, .f32⟩
  | .hbm, ⟨34, _⟩ => ⟨S81920x256, .f32⟩
  | .hbm, ⟨35, _⟩ => ⟨S_, .i32⟩
  | .hbm, ⟨36, _⟩ => ⟨S81920, .i32⟩
  | .hbm, ⟨37, _⟩ => ⟨S81920, .i1⟩
  | .hbm, ⟨38, _⟩ => ⟨S_, .i32⟩
  | .hbm, ⟨39, _⟩ => ⟨S81920, .i32⟩
  | .hbm, ⟨40, _⟩ => ⟨S81920, .i32⟩
  | .hbm, ⟨41, _⟩ => ⟨S81920, .i32⟩
  | .hbm, ⟨42, _⟩ => ⟨S81920x1, .i32⟩
  | .hbm, ⟨43, _⟩ => ⟨S81920x256, .f32⟩
  | .hbm, ⟨44, _⟩ => ⟨S_, .f32⟩
  | .hbm, ⟨45, _⟩ => ⟨S8192x256, .f32⟩
  | .hbm, ⟨46, _⟩ => ⟨S81920x1, .i32⟩
  | .hbm, ⟨47, _⟩ => ⟨S8192x256, .f32⟩
  | .hbm, ⟨48, _⟩ => ⟨S_, .f32⟩
  | .hbm, ⟨49, _⟩ => ⟨S81920, .f32⟩
  | .hbm, ⟨50, _⟩ => ⟨S_, .f32⟩
  | .hbm, ⟨51, _⟩ => ⟨S8192, .f32⟩
  | .hbm, ⟨52, _⟩ => ⟨S81920x1, .i32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1, .f32⟩
  | .hbm, ⟨58, _⟩ => ⟨S8192x64, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x1, .f32⟩
  | .local _ .vmem, ⟨16, _⟩ => ⟨S4096x1, .f32⟩
  | .local _ .vmem, ⟨17, _⟩ => ⟨S256x64, .f32⟩
  | .local _ .vmem, ⟨18, _⟩ => ⟨S256x64, .f32⟩
  | .local _ .vmem, ⟨19, _⟩ => ⟨S64, .f32⟩
  | .local _ .vmem, ⟨20, _⟩ => ⟨S4096x64, .f32⟩
  | .local _ .vmem, ⟨21, _⟩ => ⟨S4096x64, .f32⟩
  | _, _ => ⟨S1228800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1228800 : S_.BroadcastsInDim S1228800 (![] : Fin 0 → Fin S1228800.rank)
  bcast_S1228800_S1228800x1_0 : S1228800.BroadcastsInDim S1228800x1 (![0] : Fin 1 → Fin S1228800x1.rank)
  bcast_S_S81920x128 : S_.BroadcastsInDim S81920x128 (![] : Fin 0 → Fin S81920x128.rank)
  bcast_S_S81920 : S_.BroadcastsInDim S81920 (![] : Fin 0 → Fin S81920.rank)
  bcast_S81920_S81920x1_0 : S81920.BroadcastsInDim S81920x1 (![0] : Fin 1 → Fin S81920x1.rank)
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  shapeCasts_S4096x256_S4096x256 : S4096x256.ShapeCasts S4096x256
  broadcasts_S4096x1_S4096x256 : S4096x1.Broadcasts S4096x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  gather_S1228800x128_S1228800x1_S1228800x128_1_0_n_n_0_1_1128_wf : GatherDims.WF S1228800x128 S1228800x1 S1228800x128 [1] [0] [] [0] [] 1 ![1, 128]
  scatter_S81920x128_S1228800x1_S1228800x128_1_0_0_1_wf : ScatterDims.WF S81920x128 S1228800x1 S1228800x128 [1] [0] [0] 1
  scatter_S81920_S1228800x1_S1228800_n_0_0_1_wf : ScatterDims.WF S81920 S1228800x1 S1228800 [] [0] [0] 1
  dot_S4096x128_S128x256_S4096x256_1_0_0_1_n_n_wf : DotDims.WF S4096x128 S128x256 S4096x256 [1] [0] [0] [1] [] []
  gather_S81920x256_S81920x1_S81920x256_1_0_n_n_0_1_1256_wf : GatherDims.WF S81920x256 S81920x1 S81920x256 [1] [0] [] [0] [] 1 ![1, 256]
  scatter_S8192x256_S81920x1_S81920x256_1_0_0_1_wf : ScatterDims.WF S8192x256 S81920x1 S81920x256 [1] [0] [0] 1
  scatter_S8192_S81920x1_S81920_n_0_0_1_wf : ScatterDims.WF S8192 S81920x1 S81920 [] [0] [0] 1
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1228800x128.size a
  hwx0_0 : ∀ i : grid0.Coords, EltTy.bits .f32 = 32 ∨ (Rect.block (s := S1228800x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S81920x128.size a
  hwx0_1 : ∀ i : grid0.Coords, EltTy.bits .f32 = 32 ∨ (Rect.block (s := S81920x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S81920x1.size a
  hwx0_2 : ∀ i : grid0.Coords, EltTy.bits .f32 = 32 ∨ (Rect.block (s := S81920x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S81920x256.size a
  hwx0_6 : ∀ i : grid0.Coords, EltTy.bits .f32 = 32 ∨ (Rect.block (s := S81920x256) S4096x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S81920x256.size a
  hwx1_0 : ∀ i : grid1.Coords, EltTy.bits .f32 = 32 ∨ (Rect.block (s := S81920x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S8192x256.size a
  hwx1_1 : ∀ i : grid1.Coords, EltTy.bits .f32 = 32 ∨ (Rect.block (s := S8192x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S8192x1.size a
  hwx1_2 : ∀ i : grid1.Coords, EltTy.bits .f32 = 32 ∨ (Rect.block (s := S8192x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x64.size a ≤ S8192x64.size a
  hwx1_6 : ∀ i : grid1.Coords, EltTy.bits .f32 = 32 ∨ (Rect.block (s := S8192x64) S4096x64.size (cc1_transform_6 i) (hinb1_6 i)).WholeWords (EltTy.packing .f32)

variable [Facts₀]

def gather_S1228800x128_S1228800x1_S1228800x128_1_0_n_n_0_1_1128 : GatherDims S1228800x128 S1228800x1 S1228800x128 where
  offsetDims := [1]
  collapsedSliceDims := [0]
  operandBatchingDims := []
  startIndicesBatchingDims := []
  startIndexMap := [0]
  indexVectorDim := 1
  sliceSizes := ![1, 128]
  wf := gather_S1228800x128_S1228800x1_S1228800x128_1_0_n_n_0_1_1128_wf
def scatter_S81920x128_S1228800x1_S1228800x128_1_0_0_1 : ScatterDims S81920x128 S1228800x1 S1228800x128 where
  updateWindowDims := [1]
  insertedWindowDims := [0]
  scatterDimsToOperandDims := [0]
  indexVectorDim := 1
  wf := scatter_S81920x128_S1228800x1_S1228800x128_1_0_0_1_wf
def scatter_S81920_S1228800x1_S1228800_n_0_0_1 : ScatterDims S81920 S1228800x1 S1228800 where
  updateWindowDims := []
  insertedWindowDims := [0]
  scatterDimsToOperandDims := [0]
  indexVectorDim := 1
  wf := scatter_S81920_S1228800x1_S1228800_n_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S81920x256_S81920x1_S81920x256_1_0_n_n_0_1_1256 : GatherDims S81920x256 S81920x1 S81920x256 where
  offsetDims := [1]
  collapsedSliceDims := [0]
  operandBatchingDims := []
  startIndicesBatchingDims := []
  startIndexMap := [0]
  indexVectorDim := 1
  sliceSizes := ![1, 256]
  wf := gather_S81920x256_S81920x1_S81920x256_1_0_n_n_0_1_1256_wf
def scatter_S8192x256_S81920x1_S81920x256_1_0_0_1 : ScatterDims S8192x256 S81920x1 S81920x256 where
  updateWindowDims := [1]
  insertedWindowDims := [0]
  scatterDimsToOperandDims := [0]
  indexVectorDim := 1
  wf := scatter_S8192x256_S81920x1_S81920x256_1_0_0_1_wf
def scatter_S8192_S81920x1_S81920_n_0_0_1 : ScatterDims S8192 S81920x1 S81920 where
  updateWindowDims := []
  insertedWindowDims := [0]
  scatterDimsToOperandDims := [0]
  indexVectorDim := 1
  wf := scatter_S8192_S81920x1_S81920_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S4096x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1228800x128 : Shape := ⟨2, ![1228800, 128]⟩
abbrev S1228800 : Shape := ⟨1, ![1228800]⟩
abbrev S81920 : Shape := ⟨1, ![81920]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S1228800x1 : Shape := ⟨2, ![1228800, 1]⟩
abbrev S81920x128 : Shape := ⟨2, ![81920, 128]⟩
abbrev S81920x1 : Shape := ⟨2, ![81920, 1]⟩
abbrev S81920x256 : Shape := ⟨2, ![81920, 256]⟩
abbrev S1x256 : Shape := ⟨2, ![1, 256]⟩
abbrev S8192x256 : Shape := ⟨2, ![8192, 256]⟩
abbrev S8192 : Shape := ⟨1, ![8192]⟩
abbrev S8192x1 : Shape := ⟨2, ![8192, 1]⟩
abbrev S8192x64 : Shape := ⟨2, ![8192, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S1228800x128, .f32⟩
  | .hbm, ⟨1, _⟩ => ⟨S1228800, .i32⟩
  | .hbm, ⟨2, _⟩ => ⟨S1228800, .i32⟩
  | .hbm, ⟨3, _⟩ => ⟨S81920, .i32⟩
  | .hbm, ⟨4, _⟩ => ⟨S81920, .i32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S256x64, .f32⟩
  | .hbm, ⟨9, _⟩ => ⟨S256x64, .f32⟩
  | .hbm, ⟨10, _⟩ => ⟨S64, .f32⟩
  | .hbm, ⟨11, _⟩ => ⟨S_, .i32⟩
  | .hbm, ⟨12, _⟩ => ⟨S1228800, .i32⟩
  | .hbm, ⟨13, _⟩ => ⟨S1228800, .i1⟩
  | .hbm, ⟨14, _⟩ => ⟨S_, .i32⟩
  | .hbm, ⟨15, _⟩ => ⟨S1228800, .i32⟩
  | .hbm, ⟨16, _⟩ => ⟨S1228800, .i32⟩
  | .hbm, ⟨17, _⟩ => ⟨S1228800, .i32⟩
  | .hbm, ⟨18, _⟩ => ⟨S1228800x1, .i32⟩
  | .hbm, ⟨19, _⟩ => ⟨S1228800x128, .f32⟩
  | .hbm, ⟨20, _⟩ => ⟨S_, .f32⟩
  | .hbm, ⟨21, _⟩ => ⟨S81920x128, .f32⟩
  | .hbm, ⟨22, _⟩ => ⟨S1228800x1, .i32⟩
  | .hbm, ⟨23, _⟩ => ⟨S81920x128, .f32⟩
  | .hbm, ⟨24, _⟩ => ⟨S_, .f32⟩
  | .hbm, ⟨25, _⟩ => ⟨S1228800, .f32⟩
  | .hbm, ⟨26, _⟩ => ⟨S_, .f32⟩
  | .hbm, ⟨27, _⟩ => ⟨S81920, .f32⟩
  | .hbm, ⟨28, _⟩ => ⟨S1228800x1, .i32⟩
  | .hbm, ⟨29, _⟩ => ⟨S81920, .f32⟩
  | .hbm, ⟨30, _⟩ => ⟨S_, .f32⟩
  | .hbm, ⟨31, _⟩ => ⟨S81920, .f32⟩
  | .hbm, ⟨32, _⟩ => ⟨S81920, .f32⟩
  | .hbm, ⟨33, _⟩ => ⟨S81920x1, .f32⟩
  | .hbm, ⟨34, _⟩ => ⟨S81920x128, .f32⟩
  | .hbm, ⟨35, _⟩ => ⟨S81920x128, .f32⟩
  | .hbm, ⟨36, _⟩ => ⟨S81920x128, .f32⟩
  | .hbm, ⟨37, _⟩ => ⟨S81920x256, .f32⟩
  | .hbm, ⟨38, _⟩ => ⟨S81920x256, .f32⟩
  | .hbm, ⟨39, _⟩ => ⟨S81920x256, .f32⟩
  | .hbm, ⟨40, _⟩ => ⟨S1x256, .f32⟩
  | .hbm, ⟨41, _⟩ => ⟨S81920x256, .f32⟩
  | .hbm, ⟨42, _⟩ => ⟨S81920x256, .f32⟩
  | .hbm, ⟨43, _⟩ => ⟨S_, .f32⟩
  | .hbm, ⟨44, _⟩ => ⟨S81920x256, .f32⟩
  | .hbm, ⟨45, _⟩ => ⟨S81920x256, .f32⟩
  | .hbm, ⟨46, _⟩ => ⟨S_, .i32⟩
  | .hbm, ⟨47, _⟩ => ⟨S81920, .i32⟩
  | .hbm, ⟨48, _⟩ => ⟨S81920, .i1⟩
  | .hbm, ⟨49, _⟩ => ⟨S_, .i32⟩
  | .hbm, ⟨50, _⟩ => ⟨S81920, .i32⟩
  | .hbm, ⟨51, _⟩ => ⟨S81920, .i32⟩
  | .hbm, ⟨52, _⟩ => ⟨S81920, .i32⟩
  | .hbm, ⟨53, _⟩ => ⟨S81920x1, .i32⟩
  | .hbm, ⟨54, _⟩ => ⟨S81920x256, .f32⟩
  | .hbm, ⟨55, _⟩ => ⟨S_, .f32⟩
  | .hbm, ⟨56, _⟩ => ⟨S8192x256, .f32⟩
  | .hbm, ⟨57, _⟩ => ⟨S81920x1, .i32⟩
  | .hbm, ⟨58, _⟩ => ⟨S8192x256, .f32⟩
  | .hbm, ⟨59, _⟩ => ⟨S_, .f32⟩
  | .hbm, ⟨60, _⟩ => ⟨S81920, .f32⟩
  | .hbm, ⟨61, _⟩ => ⟨S_, .f32⟩
  | .hbm, ⟨62, _⟩ => ⟨S8192, .f32⟩
  | .hbm, ⟨63, _⟩ => ⟨S81920x1, .i32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S1x64, .f32⟩
  | .hbm, ⟨76, _⟩ => ⟨S8192x64, .f32⟩
  | .hbm, ⟨77, _⟩ => ⟨S8192x64, .f32⟩
  | _, _ => ⟨S1228800x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S_S1228800 : S_.BroadcastsInDim S1228800 (![] : Fin 0 → Fin S1228800.rank)
  bcast_S1228800_S1228800x1_0 : S1228800.BroadcastsInDim S1228800x1 (![0] : Fin 1 → Fin S1228800x1.rank)
  bcast_S_S81920x128 : S_.BroadcastsInDim S81920x128 (![] : Fin 0 → Fin S81920x128.rank)
  bcast_S_S81920 : S_.BroadcastsInDim S81920 (![] : Fin 0 → Fin S81920.rank)
  bcast_S81920_S81920x1_0 : S81920.BroadcastsInDim S81920x1 (![0] : Fin 1 → Fin S81920x1.rank)
  bcast_S81920x1_S81920x128_0_1 : S81920x1.BroadcastsInDim S81920x128 (![0, 1] : Fin 2 → Fin S81920x128.rank)
  slices_S1228800x128_S81920x128_0_0 : S1228800x128.Slices ![0, 0] S81920x128
  bcast_S256_S1x256_1 : S256.BroadcastsInDim S1x256 (![1] : Fin 1 → Fin S1x256.rank)
  bcast_S1x256_S81920x256_0_1 : S1x256.BroadcastsInDim S81920x256 (![0, 1] : Fin 2 → Fin S81920x256.rank)
  bcast_S_S81920x256 : S_.BroadcastsInDim S81920x256 (![] : Fin 0 → Fin S81920x256.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  slices_S81920x256_S8192x256_0_0 : S81920x256.Slices ![0, 0] S8192x256
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  gather_S1228800x128_S1228800x1_S1228800x128_1_0_n_n_0_1_1128_wf : GatherDims.WF S1228800x128 S1228800x1 S1228800x128 [1] [0] [] [0] [] 1 ![1, 128]
  scatter_S81920x128_S1228800x1_S1228800x128_1_0_0_1_wf : ScatterDims.WF S81920x128 S1228800x1 S1228800x128 [1] [0] [0] 1
  scatter_S81920_S1228800x1_S1228800_n_0_0_1_wf : ScatterDims.WF S81920 S1228800x1 S1228800 [] [0] [0] 1
  dot_S81920x128_S128x256_S81920x256_1_0_0_1_n_n_wf : DotDims.WF S81920x128 S128x256 S81920x256 [1] [0] [0] [1] [] []
  gather_S81920x256_S81920x1_S81920x256_1_0_n_n_0_1_1256_wf : GatherDims.WF S81920x256 S81920x1 S81920x256 [1] [0] [] [0] [] 1 ![1, 256]
  scatter_S8192x256_S81920x1_S81920x256_1_0_0_1_wf : ScatterDims.WF S8192x256 S81920x1 S81920x256 [1] [0] [0] 1
  scatter_S8192_S81920x1_S81920_n_0_0_1_wf : ScatterDims.WF S8192 S81920x1 S81920 [] [0] [0] 1
  dot_S8192x256_S256x64_S8192x64_1_0_0_1_n_n_wf : DotDims.WF S8192x256 S256x64 S8192x64 [1] [0] [0] [1] [] []

variable [Facts₀]

def gather_S1228800x128_S1228800x1_S1228800x128_1_0_n_n_0_1_1128 : GatherDims S1228800x128 S1228800x1 S1228800x128 where
  offsetDims := [1]
  collapsedSliceDims := [0]
  operandBatchingDims := []
  startIndicesBatchingDims := []
  startIndexMap := [0]
  indexVectorDim := 1
  sliceSizes := ![1, 128]
  wf := gather_S1228800x128_S1228800x1_S1228800x128_1_0_n_n_0_1_1128_wf
def scatter_S81920x128_S1228800x1_S1228800x128_1_0_0_1 : ScatterDims S81920x128 S1228800x1 S1228800x128 where
  updateWindowDims := [1]
  insertedWindowDims := [0]
  scatterDimsToOperandDims := [0]
  indexVectorDim := 1
  wf := scatter_S81920x128_S1228800x1_S1228800x128_1_0_0_1_wf
def scatter_S81920_S1228800x1_S1228800_n_0_0_1 : ScatterDims S81920 S1228800x1 S1228800 where
  updateWindowDims := []
  insertedWindowDims := [0]
  scatterDimsToOperandDims := [0]
  indexVectorDim := 1
  wf := scatter_S81920_S1228800x1_S1228800_n_0_0_1_wf
def dot_S81920x128_S128x256_S81920x256_1_0_0_1_n_n : DotDims S81920x128 S128x256 S81920x256 where
  lhsContracting := [1]
  rhsContracting := [0]
  lhsNonContracting := [0]
  rhsNonContracting := [1]
  lhsBatch := []
  rhsBatch := []
  wf := dot_S81920x128_S128x256_S81920x256_1_0_0_1_n_n_wf
def gather_S81920x256_S81920x1_S81920x256_1_0_n_n_0_1_1256 : GatherDims S81920x256 S81920x1 S81920x256 where
  offsetDims := [1]
  collapsedSliceDims := [0]
  operandBatchingDims := []
  startIndicesBatchingDims := []
  startIndexMap := [0]
  indexVectorDim := 1
  sliceSizes := ![1, 256]
  wf := gather_S81920x256_S81920x1_S81920x256_1_0_n_n_0_1_1256_wf
def scatter_S8192x256_S81920x1_S81920x256_1_0_0_1 : ScatterDims S8192x256 S81920x1 S81920x256 where
  updateWindowDims := [1]
  insertedWindowDims := [0]
  scatterDimsToOperandDims := [0]
  indexVectorDim := 1
  wf := scatter_S8192x256_S81920x1_S81920x256_1_0_0_1_wf
def scatter_S8192_S81920x1_S81920_n_0_0_1 : ScatterDims S8192 S81920x1 S81920 where
  updateWindowDims := []
  insertedWindowDims := [0]
  scatterDimsToOperandDims := [0]
  indexVectorDim := 1
  wf := scatter_S8192_S81920x1_S81920_n_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

class Facts : Prop extends Facts₀ where

variable [Facts]
-- ==== Proof.KernelRun.lean ====
/-
  The idealized kernel's run, with every buffer's final contents named.

  @main is four segments: the host operations that gather and sum the neighbours' rows and count the degrees for the first
  layer, the first layer's region, the same host operations for the second layer (reading the first region's result), and
  the second layer's region.  The buffers' contents at each boundary are a fold from the launch memory: a host stretch
  applies its operations, a region replaces its result array by what its grid points wrote back and leaves every other
  buffer alone.  Every weakly fair execution terminates, without a fault, with every unscoped buffer at the LAST
  boundary's contents: this is the library's theorem on programs of several regions, applied to the four segments.
-/
import proofs.«166265_j28707561407282_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    unscoped buffer of every core ends at the contents after the second region (`W4`). -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Run

end
-- ==== Proof.Spec.lean ====
/-
  A mean-aggregation graph layer, entry by entry, on the extended reals.

  Node `r` of a layer keeps its own feature row `h r` and receives the SUM `agg r` of its in-neighbours' rows together
  with its clamped in-degree `deg r` (the number of incoming edges, at least one).  Its output row is
      h r · Ws  +  (agg r / deg r) · Wn  +  b,
  that is, entry `(r, c)` is
      (Σ_k h[r,k] · Ws[k,c])  +  (Σ_k (agg[r,k] / deg[r]) · Wn[k,c])  +  b[c],
  the two sums over the input features, added in this order.  The first layer clamps the entry below at zero.

  Both programs compute exactly this expression at every entry: no term is moved across a sum and nothing is
  cancelled, so the statement needs no finiteness of the inputs.  The arrays are functions on literal index boxes; an
  entry is addressed by its row and its column.
-/
import Idealize.ShloMosaic.PureOps.Ideal
import Idealize.ShloMosaic.Lib.ValueIdx

noncomputable section

namespace Cert.Sage

open Idealize.ShloMosaic Idealize.ShloMosaic.ValueIdx

/-- One entry of a layer from the node's own row `hs`, its neighbours' summed row `ag`, its degree `dg`, the two
    weight columns `ws`, `wn` and the bias entry `bb`. -/
def cell {K : Nat} (hs ag : Fin K → EReal) (dg : EReal) (ws wn : Fin K → EReal) (bb : EReal) : EReal :=
  (∑ k : Fin K, hs k * ws k) + (∑ k : Fin K, Ideal.div (ag k) dg * wn k) + bb

/-- The first layer at row `r`, column `c`: 81920 destination nodes, which are the first 81920 of the 1228800 source
    nodes; 128 input features, 256 output features; clamped below at zero. -/
def layer0At (x : FVec Ideal ⟨2, ![1228800, 128]⟩ .f32) (agg : FVec Ideal ⟨2, ![81920, 128]⟩ .f32)
    (deg : FVec Ideal ⟨2, ![81920, 1]⟩ .f32) (Ws Wn : FVec Ideal ⟨2, ![128, 256]⟩ .f32) (b : FVec Ideal ⟨1, ![256]⟩ .f32)
    (r : Fin 81920) (c : Fin 256) : EReal :=
  max (cell (fun k : Fin 128 => x (ix2 (⟨r.val, by have := r.isLt; omega⟩ : Fin 1228800) k)) (fun k : Fin 128 => agg (ix2 r k))
      (deg (ix2 r (0 : Fin 1))) (fun k : Fin 128 => Ws (ix2 k c)) (fun k : Fin 128 => Wn (ix2 k c)) (b (ix1 c)))
    (Ideal.ofBits .f32 0x00000000#32)

/-- The first layer as an array over its index box. -/
def layer0 (x : FVec Ideal ⟨2, ![1228800, 128]⟩ .f32) (agg : FVec Ideal ⟨2, ![81920, 128]⟩ .f32)
    (deg : FVec Ideal ⟨2, ![81920, 1]⟩ .f32) (Ws Wn : FVec Ideal ⟨2, ![128, 256]⟩ .f32) (b : FVec Ideal ⟨1, ![256]⟩ .f32) :
    FVec Ideal ⟨2, ![81920, 256]⟩ .f32 :=
  fun i => layer0At x agg deg Ws Wn b ⟨(i 0).val, (i 0).isLt⟩ ⟨(i 1).val, (i 1).isLt⟩

/-- The second layer at row `r`, column `c`: 8192 destination nodes, the first 8192 of the first layer's 81920;
    256 input features, 64 output features; no clamp. -/
def layer1At (h : FVec Ideal ⟨2, ![81920, 256]⟩ .f32) (agg : FVec Ideal ⟨2, ![8192, 256]⟩ .f32)
    (deg : FVec Ideal ⟨2, ![8192, 1]⟩ .f32) (Ws Wn : FVec Ideal ⟨2, ![256, 64]⟩ .f32) (b : FVec Ideal ⟨1, ![64]⟩ .f32)
    (r : Fin 8192) (c : Fin 64) : EReal :=
  cell (fun k : Fin 256 => h (ix2 (⟨r.val, by have := r.isLt; omega⟩ : Fin 81920) k)) (fun k : Fin 256 => agg (ix2 r k))
    (deg (ix2 r (0 : Fin 1))) (fun k : Fin 256 => Ws (ix2 k c)) (fun k : Fin 256 => Wn (ix2 k c)) (b (ix1 c))

/-- The second layer as an array over its index box. -/
def layer1 (h : FVec Ideal ⟨2, ![81920, 256]⟩ .f32) (agg : FVec Ideal ⟨2, ![8192, 256]⟩ .f32)
    (deg : FVec Ideal ⟨2, ![8192, 1]⟩ .f32) (Ws Wn : FVec Ideal ⟨2, ![256, 64]⟩ .f32) (b : FVec Ideal ⟨1, ![64]⟩ .f32) :
    FVec Ideal ⟨2, ![8192, 64]⟩ .f32 :=
  fun i => layer1At h agg deg Ws Wn b ⟨(i 0).val, (i 0).isLt⟩ ⟨(i 1).val, (i 1).isLt⟩

theorem layer0_ix2 (x : FVec Ideal ⟨2, ![1228800, 128]⟩ .f32) (agg : FVec Ideal ⟨2, ![81920, 128]⟩ .f32)
    (deg : FVec Ideal ⟨2, ![81920, 1]⟩ .f32) (Ws Wn : FVec Ideal ⟨2, ![128, 256]⟩ .f32) (b : FVec Ideal ⟨1, ![256]⟩ .f32)
    (r : Fin 81920) (c : Fin 256) : layer0 x agg deg Ws Wn b (ix2 r c) = layer0At x agg deg Ws Wn b r c := rfl

theorem layer1_ix2 (h : FVec Ideal ⟨2, ![81920, 256]⟩ .f32) (agg : FVec Ideal ⟨2, ![8192, 256]⟩ .f32)
    (deg : FVec Ideal ⟨2, ![8192, 1]⟩ .f32) (Ws Wn : FVec Ideal ⟨2, ![256, 64]⟩ .f32) (b : FVec Ideal ⟨1, ![64]⟩ .f32)
    (r : Fin 8192) (c : Fin 64) : layer1 h agg deg Ws Wn b (ix2 r c) = layer1At h agg deg Ws Wn b r c := rfl

end Cert.Sage

end
-- ==== Proof.Payload0.lean ====
/-
  What region 0's body stores, read at one entry.

  The body loads a block of 4096 rows of the nodes' own features, the same rows of the summed neighbour features and of
  the degree column, the two weight matrices and the bias, and stores ONE block: at row `p`, column `q` of the block,
      (Σ_k self[p,k] · Ws[k,q])  +  (Σ_k (agg[p,k] / deg[p]) · Wn[k,q])  +  b[q],
  clamped below at zero.
  Each matrix product is a sum over the 128 input features because it accumulates into zero and `0 + s = s` on the
  extended reals; the narrowings of the products' operands to a shorter float format are the identity on exact values;
  the degree column is read at column 0 whatever the feature `k`, the bias at its column whatever the row.
-/
import proofs.«166265_j28707561407282_2_alg».proof.Proof.Gen.KernelIdeal.Skeleton
import proofs.«166265_j28707561407282_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body0

open Cert.KernelIdeal Cert.KernelIdeal.Gen Idealize.ShloMosaic Idealize.ShloMosaic.ValueIdx

/-! ## The product's operand indices: at output entry `(r, c)` and feature `k` the left operand is read at `(r, k)`,
    the right at `(k, c)` -/

theorem lhs_0 (i : S4096x256.Idx) (q : dot_S4096x128_S128x256_S4096x256_1_0_0_1_n_n.contr.Idx) : (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_1 (i : S4096x256.Idx) (q : dot_S4096x128_S128x256_S4096x256_1_0_0_1_n_n.contr.Idx) : (dot_S4096x128_S128x256_S4096x256_1_0_0_1_n_n.lhsIdx i q 1).val = (q ⟨0, by decide⟩).val :=
  dot_S4096x128_S128x256_S4096x256_1_0_0_1_n_n.lhsIdx_val_of_single rfl i q
theorem rhs_0 (i : S4096x256.Idx) (q : dot_S4096x128_S128x256_S4096x256_1_0_0_1_n_n.contr.Idx) : (dot_S4096x128_S128x256_S4096x256_1_0_0_1_n_n.rhsIdx i q 0).val = (q ⟨0, by decide⟩).val :=
  dot_S4096x128_S128x256_S4096x256_1_0_0_1_n_n.rhsIdx_val_of_single rfl i q
theorem rhs_1 (i : S4096x256.Idx) (q : dot_S4096x128_S128x256_S4096x256_1_0_0_1_n_n.contr.Idx) : (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- A product accumulated into zero, at entry `(p, q)`: the sum over the features of left `(p, k)` times right `(k, q)`. -/
theorem mm_apply {φ₁ φ₂ : FTy} (l : FVec Ideal S4096x128 φ₁) (r : FVec Ideal S128x256 φ₂) (p : Fin 4096) (q : Fin 256) :
    matmul dot_S4096x128_S128x256_S4096x256_1_0_0_1_n_n none l r (constant S4096x256 .f32 0x00000000#32) (ix2 p q) = ∑ k : Fin 128, l (ix2 p k) * r (ix2 k q) := by
  refine (Ideal.matmul_constant_zero_apply dot_S4096x128_S128x256_S4096x256_1_0_0_1_n_n none l r (ix2 p q)).trans ?_
  rw [← Equiv.sum_comp (ValueIdx.contrEquiv1 dot_S4096x128_S128x256_S4096x256_1_0_0_1_n_n 128 rfl rfl).symm]
  refine Finset.sum_congr rfl fun k _ => ?_
  have hk := ValueIdx.contrEquiv1_symm_val dot_S4096x128_S128x256_S4096x256_1_0_0_1_n_n 128 rfl rfl k
  have el : dot_S4096x128_S128x256_S4096x256_1_0_0_1_n_n.lhsIdx (ix2 p q) ((ValueIdx.contrEquiv1 dot_S4096x128_S128x256_S4096x256_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x256_S4096x256_1_0_0_1_n_n.rhsIdx (ix2 p q) ((ValueIdx.contrEquiv1 dot_S4096x128_S128x256_S4096x256_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The degree column spread along the features: entry `(p, k)` is the column's entry `(p, 0)`. -/
theorem deg_apply (x2 : FVec Ideal S4096x1 .f32) (h : S4096x1.Broadcasts S4096x128) (p : Fin 4096) (k : Fin 128) :
    broadcastTo S4096x128 x2 h (ix2 p k) = x2 (ix2 p (0 : Fin 1)) :=
  broadcastTo_apply x2 h (ix2 p k) (ix2 p (0 : Fin 1)) (fun a => match a with
    | ⟨0, _⟩ => by show p.val = if (4096 : Nat) = 1 then 0 else p.val; rw [if_neg (by decide)]
    | ⟨1, _⟩ => by show 0 = if (1 : Nat) = 1 then 0 else k.val; rw [if_pos rfl])

/-- The bias spread along the rows: entry `(p, q)` is the bias at `q`. -/
theorem bias_apply (x5 : FVec Ideal S256 .f32) (h1 : S256.ShapeCasts S1x256) (h2 : S1x256.Broadcasts S4096x256) (p : Fin 4096) (q : Fin 256) :
    broadcastTo S4096x256 (shapeCast S1x256 x5 h1) h2 (ix2 p q) = x5 (ix1 q) := by
  rw [broadcastTo_1b_ab_apply, shapeCast_a_1a_apply]

/-- The stored block at row `p`, column `q`, from the loaded blocks. -/
theorem pay_apply (x0 x1 : Vec Ideal S4096x128 .f32) (x2 : Vec Ideal S4096x1 .f32) (x3 x4 : Vec Ideal S128x256 .f32) (x5 : Vec Ideal S256 .f32)
    (p : Fin 4096) (q : Fin 256) :
    k0_pay1 (F := Ideal) x0 x1 x2 x3 x4 x5 (ix2 p q)
      = max (Cert.Sage.cell (fun k : Fin 128 => x0 (ix2 p k)) (fun k : Fin 128 => x1 (ix2 p k)) (x2 (ix2 p (0 : Fin 1)))
          (fun k : Fin 128 => x3 (ix2 k q)) (fun k : Fin 128 => x4 (ix2 k q)) (x5 (ix1 q))) (Ideal.ofBits .f32 0x00000000#32) := by
  unfold k0_pay1 Cert.Sage.cell
  dsimp only
  rw [maximumf_apply, addf_apply, addf_apply, mm_apply, mm_apply, bias_apply]
  refine congrArg₂ max (congrArg₂ (· + ·) (congrArg₂ (· + ·) ?_ (Finset.sum_congr rfl fun k _ => ?_)) rfl) rfl
  · rfl
  · rw [truncf_apply, truncf_apply, divf_apply, deg_apply, shapeCast_self, shapeCast_self]

end Cert.KernelIdeal.Body0

end
-- ==== Proof.Region0.lean ====
/-
  Region 0: from the blocks its grid points write back to the whole array.

  The grid has 20 points; point `t` works on rows `4096·t … 4096·t + 4095`: it reads those rows of the nodes' own features, of the
  neighbours' sums and of the degree column, the whole weight matrices and bias, and writes back those rows of the
  result.  By the body's entry formula, row `p` of point `t`'s block is row `4096·t + p` of the layer function of the arrays
  as the region finds them; the 20 blocks tile the 81920 rows (row `r` lies in the block of point `r / 4096`), so after the
  region the result array IS the layer function.  Stated for ANY contents `V` the region is entered with.
-/
import proofs.«166265_j28707561407282_2_alg».proof.Proof.Gen.KernelIdeal.Frame
import proofs.«166265_j28707561407282_2_alg».proof.Proof.Payload0
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer function of the arrays the region is entered with. -/
abbrev G (c : Dev nD) : S81920x256.Idx → Elt Ideal .f32 :=
  Cert.Sage.layer0 (V c main_arg0) (V c main_v9) (V c main_v16) (V c main_arg5) (V c main_arg6) (V c main_arg7)

/-- The block index maps over the grid: the three row-blocked inputs and the output are at block row `t`, block column 0;
    the weights and the bias are whole. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 1) = 0
    ∧ win0_6.index t (0 : Fin 2) = t.val
    ∧ win0_6.index t (1 : Fin 2) = 0 :=
  (by decide +kernel : ∀ t : Fin grid0.N, _)

theorem lt_N (t : Fin cfg0.N) : t.val < 20 := lt_of_lt_of_eq t.isLt N_0

/-- WHAT POINT `t` WRITES BACK is block `t` of the layer function. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz2]
  simp only [View.ld_unit_zero (S := S4096x128) hz2, View.ld_unit_zero (S := S4096x1) hz2, View.ld_unit_zero (S := S128x256) hz2, View.ld_unit_zero (S := S256) hz1]
  obtain ⟨e00, e01, e10, e11, e20, e21, e30, e31, e40, e41, e50, e60, e61⟩ := idx_facts t
  have ht := lt_N t
  funext j
  obtain ⟨p, q, rfl⟩ : ∃ (p : Fin 4096) (q : Fin 256), j = ix2 p q := ⟨j 0, j 1, eq_ix2 j⟩
  have hp := p.isLt
  have hq := q.isLt
  -- the row of the array this entry of the block is
  have h6 : ((cfg0.win 6).blk t).view.emb (ix2 p q) = ix2 (⟨t.val * 4096 + p.val, by omega⟩ : Fin 81920) q :=
    funext fun a => Fin.ext (by
      match a with
      | ⟨0, _⟩ => show win0_6.index t (0 : Fin 2) * 4096 + 1 * (p).val = t.val * 4096 + p.val; omega
      | ⟨1, _⟩ => show win0_6.index t (1 : Fin 2) * 256 + 1 * (q).val = q.val; omega)
  show k0_pay1 (iblk0 V c 0 t) (iblk0 V c 1 t) (iblk0 V c 2 t) (iblk0 V c 3 t) (iblk0 V c 4 t) (iblk0 V c 5 t) (ix2 p q)
      = G V c (((cfg0.win 6).blk t).view.emb (ix2 p q))
  rw [h6]
  refine (Body0.pay_apply _ _ _ _ _ _ p q).trans ?_
  show _ = Cert.Sage.layer0At (V c main_arg0) (V c main_v9) (V c main_v16) (V c main_arg5) (V c main_arg6) (V c main_arg7) (⟨t.val * 4096 + p.val, by omega⟩ : Fin 81920) q
  unfold Cert.Sage.layer0At
  have g0 : ∀ kk : Fin 128, ((cfg0.win 0).blk t).view.emb (ix2 p kk) = ix2 (⟨t.val * 4096 + p.val, by omega⟩ : Fin 1228800) kk := fun kk => by
    have hk := kk.isLt
    exact funext fun a => Fin.ext (by
      match a with
      | ⟨0, _⟩ => show win0_0.index t (0 : Fin 2) * 4096 + 1 * (p).val = t.val * 4096 + p.val; omega
      | ⟨1, _⟩ => show win0_0.index t (1 : Fin 2) * 128 + 1 * (kk).val = kk.val; omega)
  have g1 : ∀ kk : Fin 128, ((cfg0.win 1).blk t).view.emb (ix2 p kk) = ix2 (⟨t.val * 4096 + p.val, by omega⟩ : Fin 81920) kk := fun kk => by
    have hk := kk.isLt
    exact funext fun a => Fin.ext (by
      match a with
      | ⟨0, _⟩ => show win0_1.index t (0 : Fin 2) * 4096 + 1 * (p).val = t.val * 4096 + p.val; omega
      | ⟨1, _⟩ => show win0_1.index t (1 : Fin 2) * 128 + 1 * (kk).val = kk.val; omega)
  have g2 : ((cfg0.win 2).blk t).view.emb (ix2 p (0 : Fin 1)) = ix2 (⟨t.val * 4096 + p.val, by omega⟩ : Fin 81920) (0 : Fin 1) :=
    funext fun a => Fin.ext (by
      match a with
      | ⟨0, _⟩ => show win0_2.index t (0 : Fin 2) * 4096 + 1 * (p).val = t.val * 4096 + p.val; omega
      | ⟨1, _⟩ => show win0_2.index t (1 : Fin 2) * 1 + 1 * ((0 : Fin 1)).val = (0 : Fin 1).val; omega)
  have g3 : ∀ kk : Fin 128, ((cfg0.win 3).blk t).view.emb (ix2 kk q) = ix2 kk q := fun kk => by
    have hk := kk.isLt
    exact funext fun a => Fin.ext (by
      match a with
      | ⟨0, _⟩ => show win0_3.index t (0 : Fin 2) * 128 + 1 * (kk).val = kk.val; omega
      | ⟨1, _⟩ => show win0_3.index t (1 : Fin 2) * 256 + 1 * (q).val = q.val; omega)
  have g4 : ∀ kk : Fin 128, ((cfg0.win 4).blk t).view.emb (ix2 kk q) = ix2 kk q := fun kk => by
    have hk := kk.isLt
    exact funext fun a => Fin.ext (by
      match a with
      | ⟨0, _⟩ => show win0_4.index t (0 : Fin 2) * 128 + 1 * (kk).val = kk.val; omega
      | ⟨1, _⟩ => show win0_4.index t (1 : Fin 2) * 256 + 1 * (q).val = q.val; omega)
  have g5 : ((cfg0.win 5).blk t).view.emb (ix1 q) = ix1 q :=
    funext fun a => Fin.ext (by
      match a with
      | ⟨0, _⟩ => show win0_5.index t (0 : Fin 1) * 256 + 1 * q.val = q.val; omega)
  show max (Cert.Sage.cell (fun kk : Fin 128 => V c main_arg0 (((cfg0.win 0).blk t).view.emb (ix2 p kk)))
        (fun kk : Fin 128 => V c main_v9 (((cfg0.win 1).blk t).view.emb (ix2 p kk)))
        (V c main_v16 (((cfg0.win 2).blk t).view.emb (ix2 p (0 : Fin 1))))
        (fun kk : Fin 128 => V c main_arg5 (((cfg0.win 3).blk t).view.emb (ix2 kk q)))
        (fun kk : Fin 128 => V c main_arg6 (((cfg0.win 4).blk t).view.emb (ix2 kk q)))
        (V c main_arg7 (((cfg0.win 5).blk t).view.emb (ix1 q)))) (Ideal.ofBits .f32 0x00000000#32) = _
  simp only [g0, g1, g2, g3, g4, g5]

/-- An index of the array is in point `t`'s block iff each coordinate is in the block's range on its axis. -/
theorem mem_blk (t : Fin cfg0.N) (i : S81920x256.Idx) :
    i ∈ ((cfg0.win 6).blk t).view.set ↔ ∀ a : Fin 2, win0_6.index t a * S4096x256.size a ≤ (i a).val ∧ (i a).val < win0_6.index t a * S4096x256.size a + S4096x256.size a := by
  show i ∈ ((View.whole main_v17).slice (win0_6.rect t)).set ↔ _
  rw [View.set_slice_whole, Rect.mem_set_unit]
  exact Iff.rfl

/-- Every row lies in the block of the point `row / 4096`. -/
theorem cover (i : S81920x256.Idx) : ∃ t : Fin cfg0.N, (cfg0.win 6).flush t = true ∧ i ∈ ((cfg0.win 6).blk t).view.set := by
  have hi0 : (i 0).val < 81920 := (i 0).isLt
  have hi1 : (i 1).val < 256 := (i 1).isLt
  have hN : cfg0.N = 20 := N_0
  obtain ⟨t, htv⟩ : ∃ t : Fin cfg0.N, t.val = (i 0).val / 4096 := ⟨⟨(i 0).val / 4096, by rw [hN]; omega⟩, rfl⟩
  obtain ⟨e00, e01, e10, e11, e20, e21, e30, e31, e40, e41, e50, e60, e61⟩ := idx_facts t
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 256 ≤ (i 1).val ∧ (i 1).val < win0_6.index t (1 : Fin 2) * 256 + 256; omega

/-- THE RESULT ARRAY after the region is the layer function of the arrays the region was entered with. -/
theorem final (c : Dev nD) : (dat0 (F := Ideal) V c).arrAt 6 cfg0.N = G V c :=
  (dat0 (F := Ideal) V c).arrAt_eq_of_cover 6 (G V c) (fun t _ => flushed_eq V c t) (fun i => cover i)

end Cert.KernelIdeal.Region0

end
-- ==== Proof.Payload1.lean ====
/-
  What region 1's body stores, read at one entry.

  The body loads a block of 4096 rows of the nodes' own features, the same rows of the summed neighbour features and of
  the degree column, the two weight matrices and the bias, and stores ONE block: at row `p`, column `q` of the block,
      (Σ_k self[p,k] · Ws[k,q])  +  (Σ_k (agg[p,k] / deg[p]) · Wn[k,q])  +  b[q].
  Each matrix product is a sum over the 256 input features because it accumulates into zero and `0 + s = s` on the
  extended reals; the narrowings of the products' operands to a shorter float format are the identity on exact values;
  the degree column is read at column 0 whatever the feature `k`, the bias at its column whatever the row.
-/
import proofs.«166265_j28707561407282_2_alg».proof.Proof.Gen.KernelIdeal.Skeleton
import proofs.«166265_j28707561407282_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body1

open Cert.KernelIdeal Cert.KernelIdeal.Gen Idealize.ShloMosaic Idealize.ShloMosaic.ValueIdx

/-! ## The product's operand indices: at output entry `(r, c)` and feature `k` the left operand is read at `(r, k)`,
    the right at `(k, c)` -/

theorem lhs_0 (i : S4096x64.Idx) (q : dot_S4096x256_S256x64_S4096x64_1_0_0_1_n_n.contr.Idx) : (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhs_1 (i : S4096x64.Idx) (q : dot_S4096x256_S256x64_S4096x64_1_0_0_1_n_n.contr.Idx) : (dot_S4096x256_S256x64_S4096x64_1_0_0_1_n_n.lhsIdx i q 1).val = (q ⟨0, by decide⟩).val :=
  dot_S4096x256_S256x64_S4096x64_1_0_0_1_n_n.lhsIdx_val_of_single rfl i q
theorem rhs_0 (i : S4096x64.Idx) (q : dot_S4096x256_S256x64_S4096x64_1_0_0_1_n_n.contr.Idx) : (dot_S4096x256_S256x64_S4096x64_1_0_0_1_n_n.rhsIdx i q 0).val = (q ⟨0, by decide⟩).val :=
  dot_S4096x256_S256x64_S4096x64_1_0_0_1_n_n.rhsIdx_val_of_single rfl i q
theorem rhs_1 (i : S4096x64.Idx) (q : dot_S4096x256_S256x64_S4096x64_1_0_0_1_n_n.contr.Idx) : (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- A product accumulated into zero, at entry `(p, q)`: the sum over the features of left `(p, k)` times right `(k, q)`. -/
theorem mm_apply {φ₁ φ₂ : FTy} (l : FVec Ideal S4096x256 φ₁) (r : FVec Ideal S256x64 φ₂) (p : Fin 4096) (q : Fin 64) :
    matmul dot_S4096x256_S256x64_S4096x64_1_0_0_1_n_n none l r (constant S4096x64 .f32 0x00000000#32) (ix2 p q) = ∑ k : Fin 256, l (ix2 p k) * r (ix2 k q) := by
  refine (Ideal.matmul_constant_zero_apply dot_S4096x256_S256x64_S4096x64_1_0_0_1_n_n none l r (ix2 p q)).trans ?_
  rw [← Equiv.sum_comp (ValueIdx.contrEquiv1 dot_S4096x256_S256x64_S4096x64_1_0_0_1_n_n 256 rfl rfl).symm]
  refine Finset.sum_congr rfl fun k _ => ?_
  have hk := ValueIdx.contrEquiv1_symm_val dot_S4096x256_S256x64_S4096x64_1_0_0_1_n_n 256 rfl rfl k
  have el : dot_S4096x256_S256x64_S4096x64_1_0_0_1_n_n.lhsIdx (ix2 p q) ((ValueIdx.contrEquiv1 dot_S4096x256_S256x64_S4096x64_1_0_0_1_n_n 256 rfl rfl).symm k) = ix2 p k := funext fun a => Fin.ext (by
    match a with
    | ⟨0, _⟩ => exact lhs_0 _ _
    | ⟨1, _⟩ => exact (lhs_1 _ _).trans hk)
  have er : dot_S4096x256_S256x64_S4096x64_1_0_0_1_n_n.rhsIdx (ix2 p q) ((ValueIdx.contrEquiv1 dot_S4096x256_S256x64_S4096x64_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The degree column spread along the features: entry `(p, k)` is the column's entry `(p, 0)`. -/
theorem deg_apply (x2 : FVec Ideal S4096x1 .f32) (h : S4096x1.Broadcasts S4096x256) (p : Fin 4096) (k : Fin 256) :
    broadcastTo S4096x256 x2 h (ix2 p k) = x2 (ix2 p (0 : Fin 1)) :=
  broadcastTo_apply x2 h (ix2 p k) (ix2 p (0 : Fin 1)) (fun a => match a with
    | ⟨0, _⟩ => by show p.val = if (4096 : Nat) = 1 then 0 else p.val; rw [if_neg (by decide)]
    | ⟨1, _⟩ => by show 0 = if (1 : Nat) = 1 then 0 else k.val; rw [if_pos rfl])

/-- The bias spread along the rows: entry `(p, q)` is the bias at `q`. -/
theorem bias_apply (x5 : FVec Ideal S64 .f32) (h1 : S64.ShapeCasts S1x64) (h2 : S1x64.Broadcasts S4096x64) (p : Fin 4096) (q : Fin 64) :
    broadcastTo S4096x64 (shapeCast S1x64 x5 h1) h2 (ix2 p q) = x5 (ix1 q) := by
  rw [broadcastTo_1b_ab_apply, shapeCast_a_1a_apply]

/-- The stored block at row `p`, column `q`, from the loaded blocks. -/
theorem pay_apply (x0 x1 : Vec Ideal S4096x256 .f32) (x2 : Vec Ideal S4096x1 .f32) (x3 x4 : Vec Ideal S256x64 .f32) (x5 : Vec Ideal S64 .f32)
    (p : Fin 4096) (q : Fin 64) :
    k1_pay1 (F := Ideal) x0 x1 x2 x3 x4 x5 (ix2 p q)
      = Cert.Sage.cell (fun k : Fin 256 => x0 (ix2 p k)) (fun k : Fin 256 => x1 (ix2 p k)) (x2 (ix2 p (0 : Fin 1)))
          (fun k : Fin 256 => x3 (ix2 k q)) (fun k : Fin 256 => x4 (ix2 k q)) (x5 (ix1 q)) := by
  unfold k1_pay1 Cert.Sage.cell
  dsimp only
  rw [addf_apply, addf_apply, mm_apply, mm_apply, bias_apply]
  refine congrArg₂ (· + ·) (congrArg₂ (· + ·) ?_ (Finset.sum_congr rfl fun k _ => ?_)) rfl
  · refine Finset.sum_congr rfl fun k _ => ?_
    rw [truncf_apply, truncf_apply, shapeCast_self]
  · rw [truncf_apply, truncf_apply, divf_apply, deg_apply, shapeCast_self, shapeCast_self]

end Cert.KernelIdeal.Body1

end
-- ==== Proof.Region1.lean ====
/-
  Region 1: from the blocks its grid points write back to the whole array.

  The grid has 2 points; point `t` works on rows `4096·t … 4096·t + 4095`: it reads those rows of the nodes' own features, of the
  neighbours' sums and of the degree column, the whole weight matrices and bias, and writes back those rows of the
  result.  By the body's entry formula, row `p` of point `t`'s block is row `4096·t + p` of the layer function of the arrays
  as the region finds them; the 2 blocks tile the 8192 rows (row `r` lies in the block of point `r / 4096`), so after the
  region the result array IS the layer function.  Stated for ANY contents `V` the region is entered with.
-/
import proofs.«166265_j28707561407282_2_alg».proof.Proof.Gen.KernelIdeal.Frame
import proofs.«166265_j28707561407282_2_alg».proof.Proof.Payload1
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer function of the arrays the region is entered with. -/
abbrev G (c : Dev nD) : S8192x64.Idx → Elt Ideal .f32 :=
  Cert.Sage.layer1 (V c main_v17) (V c main_v27) (V c main_v34) (V c main_arg8) (V c main_arg9) (V c main_arg10)

/-- The block index maps over the grid: the three row-blocked inputs and the output are at block row `t`, block column 0;
    the weights and the bias are whole. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 1) = 0
    ∧ win1_6.index t (0 : Fin 2) = t.val
    ∧ win1_6.index t (1 : Fin 2) = 0 :=
  (by decide +kernel : ∀ t : Fin grid1.N, _)

theorem lt_N (t : Fin cfg1.N) : t.val < 2 := lt_of_lt_of_eq t.isLt N_1

/-- WHAT POINT `t` WRITES BACK is block `t` of the layer function. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz2]
  simp only [View.ld_unit_zero (S := S4096x256) hz2, View.ld_unit_zero (S := S4096x1) hz2, View.ld_unit_zero (S := S256x64) hz2, View.ld_unit_zero (S := S64) hz1]
  obtain ⟨e00, e01, e10, e11, e20, e21, e30, e31, e40, e41, e50, e60, e61⟩ := idx_facts t
  have ht := lt_N t
  funext j
  obtain ⟨p, q, rfl⟩ : ∃ (p : Fin 4096) (q : Fin 64), j = ix2 p q := ⟨j 0, j 1, eq_ix2 j⟩
  have hp := p.isLt
  have hq := q.isLt
  -- the row of the array this entry of the block is
  have h6 : ((cfg1.win 6).blk t).view.emb (ix2 p q) = ix2 (⟨t.val * 4096 + p.val, by omega⟩ : Fin 8192) q :=
    funext fun a => Fin.ext (by
      match a with
      | ⟨0, _⟩ => show win1_6.index t (0 : Fin 2) * 4096 + 1 * (p).val = t.val * 4096 + p.val; omega
      | ⟨1, _⟩ => show win1_6.index t (1 : Fin 2) * 64 + 1 * (q).val = q.val; omega)
  show k1_pay1 (iblk1 V c 0 t) (iblk1 V c 1 t) (iblk1 V c 2 t) (iblk1 V c 3 t) (iblk1 V c 4 t) (iblk1 V c 5 t) (ix2 p q)
      = G V c (((cfg1.win 6).blk t).view.emb (ix2 p q))
  rw [h6]
  refine (Body1.pay_apply _ _ _ _ _ _ p q).trans ?_
  show _ = Cert.Sage.layer1At (V c main_v17) (V c main_v27) (V c main_v34) (V c main_arg8) (V c main_arg9) (V c main_arg10) (⟨t.val * 4096 + p.val, by omega⟩ : Fin 8192) q
  unfold Cert.Sage.layer1At
  have g0 : ∀ kk : Fin 256, ((cfg1.win 0).blk t).view.emb (ix2 p kk) = ix2 (⟨t.val * 4096 + p.val, by omega⟩ : Fin 81920) kk := fun kk => by
    have hk := kk.isLt
    exact funext fun a => Fin.ext (by
      match a with
      | ⟨0, _⟩ => show win1_0.index t (0 : Fin 2) * 4096 + 1 * (p).val = t.val * 4096 + p.val; omega
      | ⟨1, _⟩ => show win1_0.index t (1 : Fin 2) * 256 + 1 * (kk).val = kk.val; omega)
  have g1 : ∀ kk : Fin 256, ((cfg1.win 1).blk t).view.emb (ix2 p kk) = ix2 (⟨t.val * 4096 + p.val, by omega⟩ : Fin 8192) kk := fun kk => by
    have hk := kk.isLt
    exact funext fun a => Fin.ext (by
      match a with
      | ⟨0, _⟩ => show win1_1.index t (0 : Fin 2) * 4096 + 1 * (p).val = t.val * 4096 + p.val; omega
      | ⟨1, _⟩ => show win1_1.index t (1 : Fin 2) * 256 + 1 * (kk).val = kk.val; omega)
  have g2 : ((cfg1.win 2).blk t).view.emb (ix2 p (0 : Fin 1)) = ix2 (⟨t.val * 4096 + p.val, by omega⟩ : Fin 8192) (0 : Fin 1) :=
    funext fun a => Fin.ext (by
      match a with
      | ⟨0, _⟩ => show win1_2.index t (0 : Fin 2) * 4096 + 1 * (p).val = t.val * 4096 + p.val; omega
      | ⟨1, _⟩ => show win1_2.index t (1 : Fin 2) * 1 + 1 * ((0 : Fin 1)).val = (0 : Fin 1).val; omega)
  have g3 : ∀ kk : Fin 256, ((cfg1.win 3).blk t).view.emb (ix2 kk q) = ix2 kk q := fun kk => by
    have hk := kk.isLt
    exact funext fun a => Fin.ext (by
      match a with
      | ⟨0, _⟩ => show win1_3.index t (0 : Fin 2) * 256 + 1 * (kk).val = kk.val; omega
      | ⟨1, _⟩ => show win1_3.index t (1 : Fin 2) * 64 + 1 * (q).val = q.val; omega)
  have g4 : ∀ kk : Fin 256, ((cfg1.win 4).blk t).view.emb (ix2 kk q) = ix2 kk q := fun kk => by
    have hk := kk.isLt
    exact funext fun a => Fin.ext (by
      match a with
      | ⟨0, _⟩ => show win1_4.index t (0 : Fin 2) * 256 + 1 * (kk).val = kk.val; omega
      | ⟨1, _⟩ => show win1_4.index t (1 : Fin 2) * 64 + 1 * (q).val = q.val; omega)
  have g5 : ((cfg1.win 5).blk t).view.emb (ix1 q) = ix1 q :=
    funext fun a => Fin.ext (by
      match a with
      | ⟨0, _⟩ => show win1_5.index t (0 : Fin 1) * 64 + 1 * q.val = q.val; omega)
  show Cert.Sage.cell (fun kk : Fin 256 => V c main_v17 (((cfg1.win 0).blk t).view.emb (ix2 p kk)))
        (fun kk : Fin 256 => V c main_v27 (((cfg1.win 1).blk t).view.emb (ix2 p kk)))
        (V c main_v34 (((cfg1.win 2).blk t).view.emb (ix2 p (0 : Fin 1))))
        (fun kk : Fin 256 => V c main_arg8 (((cfg1.win 3).blk t).view.emb (ix2 kk q)))
        (fun kk : Fin 256 => V c main_arg9 (((cfg1.win 4).blk t).view.emb (ix2 kk q)))
        (V c main_arg10 (((cfg1.win 5).blk t).view.emb (ix1 q))) = _
  simp only [g0, g1, g2, g3, g4, g5]

/-- An index of the array is in point `t`'s block iff each coordinate is in the block's range on its axis. -/
theorem mem_blk (t : Fin cfg1.N) (i : S8192x64.Idx) :
    i ∈ ((cfg1.win 6).blk t).view.set ↔ ∀ a : Fin 2, win1_6.index t a * S4096x64.size a ≤ (i a).val ∧ (i a).val < win1_6.index t a * S4096x64.size a + S4096x64.size a := by
  show i ∈ ((View.whole main_v35).slice (win1_6.rect t)).set ↔ _
  rw [View.set_slice_whole, Rect.mem_set_unit]
  exact Iff.rfl

/-- Every row lies in the block of the point `row / 4096`. -/
theorem cover (i : S8192x64.Idx) : ∃ t : Fin cfg1.N, (cfg1.win 6).flush t = true ∧ i ∈ ((cfg1.win 6).blk t).view.set := by
  have hi0 : (i 0).val < 8192 := (i 0).isLt
  have hi1 : (i 1).val < 64 := (i 1).isLt
  have hN : cfg1.N = 2 := N_1
  obtain ⟨t, htv⟩ : ∃ t : Fin cfg1.N, t.val = (i 0).val / 4096 := ⟨⟨(i 0).val / 4096, by rw [hN]; omega⟩, rfl⟩
  obtain ⟨e00, e01, e10, e11, e20, e21, e30, e31, e40, e41, e50, e60, e61⟩ := idx_facts t
  refine ⟨t, flush1_6 t, ?_⟩
  rw [mem_blk]
  intro a
  match a with
  | ⟨0, _⟩ => show win1_6.index t (0 : Fin 2) * 4096 ≤ (i 0).val ∧ (i 0).val < win1_6.index t (0 : Fin 2) * 4096 + 4096; omega
  | ⟨1, _⟩ => show win1_6.index t (1 : Fin 2) * 64 ≤ (i 1).val ∧ (i 1).val < win1_6.index t (1 : Fin 2) * 64 + 64; omega

/-- THE RESULT ARRAY after the region is the layer function of the arrays the region was entered with. -/
theorem final (c : Dev nD) : (dat1 (F := Ideal) V c).arrAt 6 cfg1.N = G V c :=
  (dat1 (F := Ideal) V c).arrAt_eq_of_cover 6 (G V c) (fun t _ => flushed_eq V c t) (fun i => cover i)

end Cert.KernelIdeal.Region1

end
-- ==== Proof.RefLayers.lean ====
/-
  The reference computes the two layer functions.

  Read one operation at a time, the reference's value after its first layer's clamp is, at entry `(r, c)`,
  `max ((Σ_k x[r,k]·Ws[k,c]) + (Σ_k (agg[r,k] / deg[r])·Wn[k,c]) + b[c]) 0`: a matrix product on the host is the sum over
  the contracted axis, the slice of the first 81920 rows reads row `r` itself, the degree column spread along the features
  is read at column 0 and the bias spread along the rows at its column.  The second layer is the same expression over
  the first layer's value, without the clamp.  The gathered and scatter-added arrays (the neighbours' sums and the
  degrees) are left as they are: both layers take them as arrays.
-/
import proofs.«166265_j28707561407282_2_alg».proof.Proof.Gen.ReferenceIdeal.Read
import proofs.«166265_j28707561407282_2_alg».proof.Proof.Spec

noncomputable section

namespace Cert.ReferenceIdeal.RefLayers

open Cert.ReferenceIdeal Cert.ReferenceIdeal.Read Idealize.ShloMosaic Idealize.ShloMosaic.ValueIdx

/-- Two index functions of a rank-2 box agree when their coordinates do. -/
local macro "idx2" : tactic => `(tactic| exact funext fun a => Fin.ext (by match a with | ⟨0, _⟩ => rfl | ⟨1, _⟩ => rfl))
local macro "idx1" : tactic => `(tactic| exact funext fun a => Fin.ext (by match a with | ⟨0, _⟩ => rfl))

/-- The reference's first layer, after the clamp, is `layer0` of the input, the neighbours' sums and the degrees. -/
theorem ref_layer0 (x0 : (⟨S1228800x128, .f32⟩ : BufTy).Contents (Elt Ideal)) (x1 x2 : (⟨S1228800, .i32⟩ : BufTy).Contents (Elt Ideal)) (x5 x6 : (⟨S128x256, .f32⟩ : BufTy).Contents (Elt Ideal)) (x7 : (⟨S256, .f32⟩ : BufTy).Contents (Elt Ideal)) :
    val_main_v26 (F := Ideal) x0 x1 x2 x5 x6 x7
      = Cert.Sage.layer0 x0 (val_main_v9 (F := Ideal) x0 x1 x2) (val_main_v16 (F := Ideal) x2) x5 x6 x7 := by
  funext i
  obtain ⟨r, c, rfl⟩ : ∃ (r : Fin 81920) (c : Fin 256), i = ix2 r c := ⟨i 0, i 1, eq_ix2 i⟩
  rw [Cert.Sage.layer0_ix2]
  unfold Cert.Sage.layer0At Cert.Sage.cell
  rw [val_main_v26_apply, val_main_v25_apply, val_main_v22_apply, val_main_v20_apply, val_main_v21_apply, val_main_v24_apply,
    val_main_v23_apply, val_main_call0_v0_apply, val_main_call0_cst_apply]
  simp only [Ideal.maximumf_def, Ideal.addf_def, Ideal.ofBits_def]
  refine congrArg₂ max (congrArg₂ (· + ·) (congrArg₂ (· + ·) (Finset.sum_congr rfl fun k _ => ?_) (Finset.sum_congr rfl fun k _ => ?_)) ?_) rfl
  · rw [val_main_v19_apply]
    exact congrArg₂ (· * ·) (congrArg x0 (by idx2)) (congrArg x5 (by idx2))
  · rw [val_main_v18_apply, val_main_v17_apply, Ideal.hostDivf_def]
    exact congrArg₂ (· * ·) (congrArg₂ Ideal.div (congrArg (val_main_v9 (F := Ideal) x0 x1 x2) (by idx2)) (congrArg (val_main_v16 (F := Ideal) x2) (by idx2)))
      (congrArg x6 (by idx2))
  · exact congrArg x7 (by idx1)

/-- The reference's result is `layer1` of its first layer's value, that value's neighbour sums and the degrees. -/
theorem ref_layer1 (x0 : (⟨S1228800x128, .f32⟩ : BufTy).Contents (Elt Ideal)) (x1 x2 : (⟨S1228800, .i32⟩ : BufTy).Contents (Elt Ideal)) (x3 x4 : (⟨S81920, .i32⟩ : BufTy).Contents (Elt Ideal)) (x5 x6 : (⟨S128x256, .f32⟩ : BufTy).Contents (Elt Ideal)) (x7 : (⟨S256, .f32⟩ : BufTy).Contents (Elt Ideal))
    (x8 x9 : (⟨S256x64, .f32⟩ : BufTy).Contents (Elt Ideal)) (x10 : (⟨S64, .f32⟩ : BufTy).Contents (Elt Ideal)) :
    val_main_v52 (F := Ideal) x0 x1 x2 x3 x4 x5 x6 x7 x8 x9 x10
      = Cert.Sage.layer1 (val_main_v26 (F := Ideal) x0 x1 x2 x5 x6 x7) (val_main_v36 (F := Ideal) x0 x1 x2 x3 x4 x5 x6 x7) (val_main_v43 (F := Ideal) x4) x8 x9 x10 := by
  funext i
  obtain ⟨r, c, rfl⟩ : ∃ (r : Fin 8192) (c : Fin 64), i = ix2 r c := ⟨i 0, i 1, eq_ix2 i⟩
  rw [Cert.Sage.layer1_ix2]
  unfold Cert.Sage.layer1At Cert.Sage.cell
  rw [val_main_v52_apply, val_main_v49_apply, val_main_v47_apply, val_main_v48_apply, val_main_v51_apply, val_main_v50_apply]
  simp only [Ideal.addf_def]
  refine congrArg₂ (· + ·) (congrArg₂ (· + ·) (Finset.sum_congr rfl fun k _ => ?_) (Finset.sum_congr rfl fun k _ => ?_)) ?_
  · rw [val_main_v46_apply]
    exact congrArg₂ (· * ·) (congrArg (val_main_v26 (F := Ideal) x0 x1 x2 x5 x6 x7) (by idx2)) (congrArg x8 (by idx2))
  · rw [val_main_v45_apply, val_main_v44_apply, Ideal.hostDivf_def]
    exact congrArg₂ (· * ·) (congrArg₂ Ideal.div (congrArg (val_main_v36 (F := Ideal) x0 x1 x2 x3 x4 x5 x6 x7) (by idx2)) (congrArg (val_main_v43 (F := Ideal) x4) (by idx2)))
      (congrArg x9 (by idx2))
  · exact congrArg x10 (by idx1)

end Cert.ReferenceIdeal.RefLayers

end
-- ==== Proof.Glue.lean ====
/-
  The idealized kernel's result, read back through its four segments.

  After the second region the result array is the second layer's function of what that region was entered with: the
  first region's result (unchanged by the host operations between the regions, which only read it), its rows gathered
  along the second edge list and summed per destination, and the clamped degrees.  The first region's result is in turn
  the first layer's function of the input, the input's rows gathered along the first edge list and summed per
  destination, and the clamped degrees.  The gather, the scatter-add and the degree count are the SAME host operations,
  with the same constants, in both programs, so they are never opened: the two programs' terms for them are one term.
  Hence the kernel's result is the reference's value — the composition the reference computes — of the kernel's own
  argument arrays.
-/
import proofs.«166265_j28707561407282_2_alg».proof.Proof.Gen.KernelIdeal.Frame
import proofs.«166265_j28707561407282_2_alg».proof.Proof.Region0
import proofs.«166265_j28707561407282_2_alg».proof.Proof.Region1
import proofs.«166265_j28707561407282_2_alg».proof.Proof.RefLayers
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD) (ρ : Dev nD → PrngReg)

/-! ## Before the first region: the arguments as launched, the neighbours' sums and the degrees of the first layer -/

theorem W1_main_arg0 : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_main_arg3 : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_main_arg4 : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_main_arg5 : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_main_arg6 : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_main_arg7 : W1 m ρ c (Proc.devRef .tc main_arg7) = m ((c : Thread nD τ).loc main_arg7) :=
  (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_main_arg8 : W1 m ρ c (Proc.devRef .tc main_arg8) = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_main_arg9 : W1 m ρ c (Proc.devRef .tc main_arg9) = m ((c : Thread nD τ).loc main_arg9) :=
  (StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_main_arg10 : W1 m ρ c (Proc.devRef .tc main_arg10) = m ((c : Thread nD τ).loc main_arg10) :=
  (StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- The first layer's neighbour sums: the input's rows gathered along the first edge list, summed per destination. -/
theorem W1_main_v9 : W1 m ρ c (Proc.devRef .tc main_v9) = Cert.ReferenceIdeal.Read.val_main_v9 (F := Ideal) (m ((c : Thread nD τ).loc main_arg0)) (m ((c : Thread nD τ).loc main_arg1)) (m ((c : Thread nD τ).loc main_arg2)) := by
  show StableHlo.after hostOps0 (W0 m ρ c) (Proc.devRef .tc main_v9) = _
  dsimp only [hostOps0]
  after_results
  simp only [Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_c, Cert.ReferenceIdeal.Read.val_main_c_0, Cert.ReferenceIdeal.Read.val_main_cst]
  rfl

/-- The first layer's clamped degrees, as a column. -/
theorem W1_main_v16 : W1 m ρ c (Proc.devRef .tc main_v16) = Cert.ReferenceIdeal.Read.val_main_v16 (F := Ideal) (m ((c : Thread nD τ).loc main_arg2)) := by
  show StableHlo.after hostOps0 (W0 m ρ c) (Proc.devRef .tc main_v16) = _
  dsimp only [hostOps0]
  after_results
  simp only [Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_cst_1, Cert.ReferenceIdeal.Read.val_main_cst_2, Cert.ReferenceIdeal.Read.val_main_cst_3]
  rfl

/-! ## After the first region -/

theorem W2_main_arg3 : W2 m ρ c (Proc.devRef .tc main_arg3) = m ((c : Thread nD τ).loc main_arg3) :=
  (W2_of_ne m ρ c main_arg3 (by decide)).trans (W1_main_arg3 m c ρ)
theorem W2_main_arg4 : W2 m ρ c (Proc.devRef .tc main_arg4) = m ((c : Thread nD τ).loc main_arg4) :=
  (W2_of_ne m ρ c main_arg4 (by decide)).trans (W1_main_arg4 m c ρ)
theorem W2_main_arg8 : W2 m ρ c (Proc.devRef .tc main_arg8) = m ((c : Thread nD τ).loc main_arg8) :=
  (W2_of_ne m ρ c main_arg8 (by decide)).trans (W1_main_arg8 m c ρ)
theorem W2_main_arg9 : W2 m ρ c (Proc.devRef .tc main_arg9) = m ((c : Thread nD τ).loc main_arg9) :=
  (W2_of_ne m ρ c main_arg9 (by decide)).trans (W1_main_arg9 m c ρ)
theorem W2_main_arg10 : W2 m ρ c (Proc.devRef .tc main_arg10) = m ((c : Thread nD τ).loc main_arg10) :=
  (W2_of_ne m ρ c main_arg10 (by decide)).trans (W1_main_arg10 m c ρ)

/-- The first region's result is the reference's first-layer value of the kernel's arguments. -/
theorem W2_main_v17 : W2 m ρ c (Proc.devRef .tc main_v17) = Cert.ReferenceIdeal.Read.val_main_v26 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (W2_arr m ρ c 6).trans ((Region0.final (V1 m ρ) c).trans ?_)
  show Cert.Sage.layer0 (W1 m ρ c (Proc.devRef .tc main_arg0)) (W1 m ρ c (Proc.devRef .tc main_v9)) (W1 m ρ c (Proc.devRef .tc main_v16))
      (W1 m ρ c (Proc.devRef .tc main_arg5)) (W1 m ρ c (Proc.devRef .tc main_arg6)) (W1 m ρ c (Proc.devRef .tc main_arg7)) = _
  rw [W1_main_arg0, W1_main_v9, W1_main_v16, W1_main_arg5, W1_main_arg6, W1_main_arg7]
  exact (Cert.ReferenceIdeal.RefLayers.ref_layer0 _ _ _ _ _ _).symm

/-! ## Before the second region -/

theorem W3_main_arg8 : W3 m ρ c (Proc.devRef .tc main_arg8) = m ((c : Thread nD τ).loc main_arg8) :=
  (StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg8 m c ρ)
theorem W3_main_arg9 : W3 m ρ c (Proc.devRef .tc main_arg9) = m ((c : Thread nD τ).loc main_arg9) :=
  (StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg9 m c ρ)
theorem W3_main_arg10 : W3 m ρ c (Proc.devRef .tc main_arg10) = m ((c : Thread nD τ).loc main_arg10) :=
  (StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg10 m c ρ)

/-- The host operations between the regions only read the first region's result. -/
theorem W3_main_v17 : W3 m ρ c (Proc.devRef .tc main_v17) = Cert.ReferenceIdeal.Read.val_main_v26 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) :=
  (StableHlo.after_of_forall_not_mem (b := Proc.devRef .tc main_v17) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_v17 m c ρ)

set_option maxHeartbeats 2000000 in
/-- The second layer's neighbour sums: the first layer's rows gathered along the second edge list, summed per destination. -/
theorem W3_main_v27 : W3 m ρ c (Proc.devRef .tc main_v27) = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v27) = _
  dsimp only [hostOps1]
  after_results
  rw [W2_main_v17, W2_main_arg3, W2_main_arg4]
  simp only [Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_v29, Cert.ReferenceIdeal.Read.val_main_v28, Cert.ReferenceIdeal.Read.val_main_v27, Cert.ReferenceIdeal.Read.val_main_c_4, Cert.ReferenceIdeal.Read.val_main_c_5, Cert.ReferenceIdeal.Read.val_main_cst_6]
  rfl

/-- The second layer's clamped degrees, as a column. -/
theorem W3_main_v34 : W3 m ρ c (Proc.devRef .tc main_v34) = Cert.ReferenceIdeal.Read.val_main_v43 (F := Ideal) (m ((c : Thread nD τ).loc main_arg4)) := by
  show StableHlo.after hostOps1 (W2 m ρ c) (Proc.devRef .tc main_v34) = _
  dsimp only [hostOps1]
  after_results
  rw [W2_main_arg4]
  simp only [Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_v38, Cert.ReferenceIdeal.Read.val_main_v37, Cert.ReferenceIdeal.Read.val_main_cst_7, Cert.ReferenceIdeal.Read.val_main_cst_8, Cert.ReferenceIdeal.Read.val_main_cst_9]
  rfl

/-! ## After the second region -/

/-- THE RESULT: the reference's value of the kernel's own arguments. -/
theorem W4_main_v35 : W4 m ρ c (Proc.devRef .tc main_v35) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((Region1.final (V3 m ρ) c).trans ?_)
  show Cert.Sage.layer1 (W3 m ρ c (Proc.devRef .tc main_v17)) (W3 m ρ c (Proc.devRef .tc main_v27)) (W3 m ρ c (Proc.devRef .tc main_v34))
      (W3 m ρ c (Proc.devRef .tc main_arg8)) (W3 m ρ c (Proc.devRef .tc main_arg9)) (W3 m ρ c (Proc.devRef .tc main_arg10)) = _
  rw [W3_main_v17, W3_main_v27, W3_main_v34, W3_main_arg8, W3_main_arg9, W3_main_arg10]
  exact (Cert.ReferenceIdeal.RefLayers.ref_layer1 _ _ _ _ _ _ _ _ _ _ _).symm

end Cert.KernelIdeal.Glue

end
-- ==== Proof.lean ====
/-
  A two-layer mean-aggregation graph network: the tiled kernel against the plain reference, on the extended reals.

  Each layer sends node `r` to  h r · Ws + (agg r / deg r) · Wn + b,  where `agg r` is the sum of the rows of `r`'s
  in-neighbours (the rows gathered along the edge list's sources and scatter-added at its destinations) and `deg r` the
  number of incoming edges, clamped below at one; the first layer is clamped below at zero, and the second layer's nodes
  are the first 8192 of the first layer's 81920, which are the first 81920 of the 1228800 input nodes.

  The reference computes this with whole-array operations.  The kernel leaves the gather, the scatter-add and the degree
  count to the same host operations and computes each layer's dense part in a grid of blocks of 4096 rows, reading the
  rows it needs straight out of the full feature array, its matrix products accumulating into zero.  At the ideal
  values both are the same expression at every entry — the same two sums over the input features, added in the same
  order, the same quotient by the degree — so the results agree as extended reals for all inputs, finite or not:
  no term is moved across a sum and nothing is cancelled, and the precondition is not used.

  Modules: Spec (the layer, entry by entry) · RefLayers (the reference's two stages are the layer) · Payload0/1 (a
  block's entry from the loaded blocks) · Region0/1 (the blocks tile the result array) · KernelRun (the kernel's run with
  every buffer's final contents) · Glue (those contents read back to the arguments) · this file (the five claims).
-/
import proofs.«166265_j28707561407282_2_alg».proof.Defs
import proofs.«166265_j28707561407282_2_alg».proof.Proof.Gen.Kernel
import proofs.«166265_j28707561407282_2_alg».proof.Proof.Gen.Kernel.Skeleton
import proofs.«166265_j28707561407282_2_alg».proof.Proof.Gen.Kernel.Launch
import proofs.«166265_j28707561407282_2_alg».proof.Proof.Gen.Kernel.Points
import proofs.«166265_j28707561407282_2_alg».proof.Proof.Gen.Kernel.Frame
import proofs.«166265_j28707561407282_2_alg».proof.Proof.Gen.KernelIdeal
import proofs.«166265_j28707561407282_2_alg».proof.Proof.Gen.KernelIdeal.Skeleton
import proofs.«166265_j28707561407282_2_alg».proof.Proof.Gen.KernelIdeal.Launch
import proofs.«166265_j28707561407282_2_alg».proof.Proof.Gen.KernelIdeal.Points
import proofs.«166265_j28707561407282_2_alg».proof.Proof.Gen.KernelIdeal.Frame
import proofs.«166265_j28707561407282_2_alg».proof.Proof.Gen.ReferenceIdeal
import proofs.«166265_j28707561407282_2_alg».proof.Proof.Gen.Pre_finite_inputs
import proofs.«166265_j28707561407282_2_alg».proof.Proof.Gen.ReferenceIdeal.Run
import proofs.«166265_j28707561407282_2_alg».proof.Proof.Gen.ReferenceIdeal.Read
import proofs.«166265_j28707561407282_2_alg».proof.Proof.KernelRun
import proofs.«166265_j28707561407282_2_alg».proof.Proof.Glue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : Cert.frame_Kernel :=
  fun m ρ _ => Cert.Kernel.Gen.frame m ρ

/-- The idealized kernel runs and leaves its arguments as launched. -/
theorem frame_kernelIdeal : Cert.frame_KernelIdeal :=
  fun m ρ _ => Cert.KernelIdeal.Gen.frame m ρ

/-- The idealized reference runs and leaves its arguments as launched: its run, the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both idealized programs end with the reference's two-layer value of those
    arguments: the kernel by its run read back through its four segments, the reference by its run. -/
theorem algebraic :
    Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Run.run_boundary (F := Ideal) m ρ)
    exact ⟨(h c _ (Cert.KernelIdeal.Gen.mem_uc Cert.KernelIdeal.main_v35 (by decide))).trans (Cert.KernelIdeal.Glue.W4_main_v35 m c ρ),
        (h c _ (Cert.KernelIdeal.Gen.mem_uc Cert.KernelIdeal.main_arg0 (by decide))).trans (Cert.KernelIdeal.Gen.W4_main_arg0 m ρ c),
        (h c _ (Cert.KernelIdeal.Gen.mem_uc Cert.KernelIdeal.main_arg1 (by decide))).trans (Cert.KernelIdeal.Gen.W4_main_arg1 m ρ c),
        (h c _ (Cert.KernelIdeal.Gen.mem_uc Cert.KernelIdeal.main_arg2 (by decide))).trans (Cert.KernelIdeal.Gen.W4_main_arg2 m ρ c),
        (h c _ (Cert.KernelIdeal.Gen.mem_uc Cert.KernelIdeal.main_arg3 (by decide))).trans (Cert.KernelIdeal.Gen.W4_main_arg3 m ρ c),
        (h c _ (Cert.KernelIdeal.Gen.mem_uc Cert.KernelIdeal.main_arg4 (by decide))).trans (Cert.KernelIdeal.Gen.W4_main_arg4 m ρ c),
        (h c _ (Cert.KernelIdeal.Gen.mem_uc Cert.KernelIdeal.main_arg5 (by decide))).trans (Cert.KernelIdeal.Gen.W4_main_arg5 m ρ c),
        (h c _ (Cert.KernelIdeal.Gen.mem_uc Cert.KernelIdeal.main_arg6 (by decide))).trans (Cert.KernelIdeal.Gen.W4_main_arg6 m ρ c),
        (h c _ (Cert.KernelIdeal.Gen.mem_uc Cert.KernelIdeal.main_arg7 (by decide))).trans (Cert.KernelIdeal.Gen.W4_main_arg7 m ρ c),
        (h c _ (Cert.KernelIdeal.Gen.mem_uc Cert.KernelIdeal.main_arg8 (by decide))).trans (Cert.KernelIdeal.Gen.W4_main_arg8 m ρ c),
        (h c _ (Cert.KernelIdeal.Gen.mem_uc Cert.KernelIdeal.main_arg9 (by decide))).trans (Cert.KernelIdeal.Gen.W4_main_arg9 m ρ c),
        (h c _ (Cert.KernelIdeal.Gen.mem_uc Cert.KernelIdeal.main_arg10 (by decide))).trans (Cert.KernelIdeal.Gen.W4_main_arg10 m ρ c)⟩
  · refine (θ_run Cert.ReferenceIdeal.defs _ _).mono (fun _ h c => ⟨?_, (h c).2⟩) (Cert.ReferenceIdeal.Value.run (F := Ideal) m' ρ')
    obtain ⟨a0, a1, a2, a3, a4, a5, a6, a7, a8, a9, a10⟩ := hagree c
    rw [(h c).1, Cert.ReferenceIdeal.Read.val_main_v52_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
